-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1000 : Shape := ⟨2, ![131072, 1000]⟩
abbrev S1000 : Shape := ⟨1, ![1000]⟩
abbrev S_ : Shape := ⟨0, ![]⟩

class Facts : Prop where
  bcast_S_S131072x1000 : S_.BroadcastsInDim S131072x1000 (![] : Fin 0 → Fin S131072x1000.rank)
  reducesTo_S131072x1000_S_d0_1 : S131072x1000.ReducesTo [0, 1] S_
  h_S_ : 0 < S_.numel
  bcast_S_S1000 : S_.BroadcastsInDim S1000 (![] : Fin 0 → Fin S1000.rank)
  reducesTo_S1000_S_d0 : S1000.ReducesTo [0] S_

variable [Facts]

def fn_part1 {F : FTy → Type} [FloatOps F] (main_v13 : IVec S_ 1) (main_v15 : IVec S_ 1) : IVec S_ 1 :=
  let main_v16 : IVec S_ 1 := andi main_v13 main_v15
  main_v16

def fn {F : FTy → Type} [FloatOps F] (main_arg0 : FVec F S131072x1000 .f32) (main_arg1 : FVec F S131072x1000 .f32) (main_arg2 : FVec F S1000 .f32) : IVec S_ 1 :=
  let main_v0 : FVec F S131072x1000 .f32 := Host.absf main_arg0
  let main_cst : FVec F S_ .f32 := constant S_ .f32 0x7F800000#32
  let main_v1 : FVec F S131072x1000 .f32 := broadcastInDim S131072x1000 ![] bcast_S_S131072x1000 main_cst
  let main_v2 : IVec S131072x1000 1 := cmpf .olt main_v0 main_v1
  let main_c : IVec S_ 1 := constantI S_ 1 1#1
  let main_v3 : IVec S_ 1 := (fun x v => Host.reduce IntOp.andi x v reducesTo_S131072x1000_S_d0_1 h_S_) main_v2 main_c
  let main_v4 : FVec F S131072x1000 .f32 := Host.absf main_arg1
  let main_cst_0 : FVec F S_ .f32 := constant S_ .f32 0x7F800000#32
  let main_v5 : FVec F S131072x1000 .f32 := broadcastInDim S131072x1000 ![] bcast_S_S131072x1000 main_cst_0
  let main_v6 : IVec S131072x1000 1 := cmpf .olt main_v4 main_v5
  let main_c_1 : IVec S_ 1 := constantI S_ 1 1#1
  let main_v7 : IVec S_ 1 := (fun x v => Host.reduce IntOp.andi x v reducesTo_S131072x1000_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_cst_4 : FVec F S_ .f32 := constant S_ .f32 0x00000000#32
  let main_v14 : FVec F S_ .f32 := (fun x v => Host.reduceAdd x v reducesTo_S1000_S_d0 h_S_) main_arg2 main_cst_4
  let main_cst_5 : FVec F S_ .f32 := constant S_ .f32 0x00000000#32
  let main_v15 : IVec S_ 1 := cmpf .une main_v14 main_cst_5
  fn_part1 (F := F) main_v13 main_v15
-- ==== Kernel.lean ====
abbrev S131072x1000 : Shape := ⟨2, ![131072, 1000]⟩
abbrev S1000 : Shape := ⟨1, ![1000]⟩
abbrev S_ : Shape := ⟨0, ![]⟩
abbrev S1x1000 : Shape := ⟨2, ![1, 1000]⟩
abbrev S131072 : Shape := ⟨1, ![131072]⟩
abbrev S1024x1000 : Shape := ⟨2, ![1024, 1000]⟩
abbrev S1024 : Shape := ⟨1, ![1024]⟩
abbrev S1024x1 : Shape := ⟨2, ![1024, 1]⟩

abbrev nBuf : Space → Nat
  | .hbm => 16
  | .vmem => 7
  | .smem => 0
  | _ => 0

abbrev bufTy : (tb : Table) → Fin (tcTables nBuf tb) → BufTy
  | .hbm, ⟨0, _⟩ => ⟨S131072x1000, .f32⟩
  | .hbm, ⟨1, _⟩ => ⟨S131072x1000, .f32⟩
  | .hbm, ⟨2, _⟩ => ⟨S1000, .f32⟩
  | .hbm, ⟨3, _⟩ => ⟨S_, .f32⟩
  | .hbm, ⟨4, _⟩ => ⟨S_, .f32⟩
  | .hbm, ⟨5, _⟩ => ⟨S1000, .f32⟩
  | .hbm, ⟨6, _⟩ => ⟨S1000, .f32⟩
  | .hbm, ⟨7, _⟩ => ⟨S_, .f32⟩
  | .hbm, ⟨8, _⟩ => ⟨S1000, .f32⟩
  | .hbm, ⟨9, _⟩ => ⟨S1000, .f32⟩
  | .hbm, ⟨10, _⟩ => ⟨S1x1000, .f32⟩
  | .hbm, ⟨11, _⟩ => ⟨S131072, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1000, .f32⟩
  | .local _ .vmem, ⟨3, _⟩ => ⟨S1024x1000, .f32⟩
  | .local _ .vmem, ⟨4, _⟩ => ⟨S1x1000, .f32⟩
  | .local _ .vmem, ⟨5, _⟩ => ⟨S1024, .f32⟩
  | .local _ .vmem, ⟨6, _⟩ => ⟨S1024, .f32⟩
  | _, _ => ⟨S131072x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1000_S_d0 : S1000.ReducesTo [0] S_
  h_S_ : 0 < S_.numel
  bcast_S_S1000 : S_.BroadcastsInDim S1000 (![] : Fin 0 → Fin S1000.rank)
  shapeCasts_S1000_S1x1000 : S1000.ShapeCasts S1x1000
  inb_S1024x1000_S1024x1000_0_0 : ∀ a, (![0, 0] : Fin 2 → Nat) a + S1024x1000.size a ≤ S1024x1000.size a
  h_S1024x1000 : 0 < S1024x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  reduces_S1024x1000_S1024 : S1024x1000.Reduces [1] S1024
  shapeCasts_S1024_S1024x1 : S1024.ShapeCasts S1024x1
  broadcasts_S1024x1_S1024x1000 : S1024x1.Broadcasts S1024x1000
  broadcasts_S1x1000_S1024x1000 : S1x1000.Broadcasts S1024x1000
  shapeCasts_S1024x1_S1024 : S1024x1.ShapeCasts S1024
  inb_S1024_S1024_0 : ∀ a, (![0] : Fin 1 → Nat) a + S1024.size a ≤ S1024.size a
  h_S1024 : 0 < S1024.numel
  reducesTo_S131072_S_d0 : S131072.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S131072x1000.size a
  hwx0_0 : ∀ i : grid0.Coords, EltTy.bits .f32 = 32 ∨ (Rect.block (s := S131072x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S131072x1000.size a
  hwx0_1 : ∀ i : grid0.Coords, EltTy.bits .f32 = 32 ∨ (Rect.block (s := S131072x1000) S1024x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S131072.size a
  hwx0_3 : ∀ i : grid0.Coords, EltTy.bits .f32 = 32 ∨ (Rect.block (s := S131072) S1024.size (cc0_transform_3 i) (hinb0_3 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x1000 : Shape := ⟨2, ![131072, 1000]⟩
abbrev S1000 : Shape := ⟨1, ![1000]⟩
abbrev S_ : Shape := ⟨0, ![]⟩
abbrev S131072 : Shape := ⟨1, ![131072]⟩
abbrev S131072x1 : Shape := ⟨2, ![131072, 1]⟩
abbrev S1x1000 : Shape := ⟨2, ![1, 1000]⟩

abbrev nBuf : Space → Nat
  | .hbm => 36
  | .vmem => 0
  | .smem => 0
  | _ => 0

abbrev bufTy : (tb : Table) → Fin (tcTables nBuf tb) → BufTy
  | .hbm, ⟨0, _⟩ => ⟨S131072x1000, .f32⟩
  | .hbm, ⟨1, _⟩ => ⟨S131072x1000, .f32⟩
  | .hbm, ⟨2, _⟩ => ⟨S1000, .f32⟩
  | .hbm, ⟨3, _⟩ => ⟨S_, .f32⟩
  | .hbm, ⟨4, _⟩ => ⟨S_, .f32⟩
  | .hbm, ⟨5, _⟩ => ⟨S1000, .f32⟩
  | .hbm, ⟨6, _⟩ => ⟨S1000, .f32⟩
  | .hbm, ⟨7, _⟩ => ⟨S_, .f32⟩
  | .hbm, ⟨8, _⟩ => ⟨S1000, .f32⟩
  | .hbm, ⟨9, _⟩ => ⟨S1000, .f32⟩
  | .hbm, ⟨10, _⟩ => ⟨S_, .f32⟩
  | .hbm, ⟨11, _⟩ => ⟨S131072, .f32⟩
  | .hbm, ⟨12, _⟩ => ⟨S_, .f32⟩
  | .hbm, ⟨13, _⟩ => ⟨S131072, .f32⟩
  | .hbm, ⟨14, _⟩ => ⟨S131072, .f32⟩
  | .hbm, ⟨15, _⟩ => ⟨S131072x1, .f32⟩
  | .hbm, ⟨16, _⟩ => ⟨S131072x1000, .f32⟩
  | .hbm, ⟨17, _⟩ => ⟨S131072x1000, .f32⟩
  | .hbm, ⟨18, _⟩ => ⟨S131072x1000, .f32⟩
  | .hbm, ⟨19, _⟩ => ⟨S_, .f32⟩
  | .hbm, ⟨20, _⟩ => ⟨S131072, .f32⟩
  | .hbm, ⟨21, _⟩ => ⟨S131072x1, .f32⟩
  | .hbm, ⟨22, _⟩ => ⟨S131072x1, .f32⟩
  | .hbm, ⟨23, _⟩ => ⟨S131072x1000, .f32⟩
  | .hbm, ⟨24, _⟩ => ⟨S131072x1000, .f32⟩
  | .hbm, ⟨25, _⟩ => ⟨S1x1000, .f32⟩
  | .hbm, ⟨26, _⟩ => ⟨S131072x1000, .f32⟩
  | .hbm, ⟨27, _⟩ => ⟨S131072x1000, .f32⟩
  | .hbm, ⟨28, _⟩ => ⟨S131072x1000, .f32⟩
  | .hbm, ⟨29, _⟩ => ⟨S_, .f32⟩
  | .hbm, ⟨30, _⟩ => ⟨S131072, .f32⟩
  | .hbm, ⟨31, _⟩ => ⟨S131072, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S131072x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩

abbrev nD : Nat := 1
abbrev τ : Topo := Topo.v7x

variable {F : FTy → Type} [FloatOps F]

class Facts₀ : Prop where
  reducesTo_S1000_S_d0 : S1000.ReducesTo [0] S_
  h_S_ : 0 < S_.numel
  bcast_S_S1000 : S_.BroadcastsInDim S1000 (![] : Fin 0 → Fin S1000.rank)
  reducesTo_S131072x1000_S131072_d1 : S131072x1000.ReducesTo [1] S131072
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x1000_0_1 : S131072x1.BroadcastsInDim S131072x1000 (![0, 1] : Fin 2 → Fin S131072x1000.rank)
  bcast_S1000_S1x1000_1 : S1000.BroadcastsInDim S1x1000 (![1] : Fin 1 → Fin S1x1000.rank)
  bcast_S1x1000_S131072x1000_0_1 : S1x1000.BroadcastsInDim S131072x1000 (![0, 1] : Fin 2 → Fin S131072x1000.rank)
  reducesTo_S131072_S_d0 : S131072.ReducesTo [0] S_

variable [Facts₀]

class Facts : Prop extends Facts₀ where

variable [Facts]
-- ==== Proof.RowLaw.lean ====
/-
  One row of a weighted soft-target cross entropy, written twice over a row of extended reals.

  For a row of logits `x`, soft targets `t` and class weights `w` (all indexed by the classes), let `M` be the row's
  largest logit, `s k = x k - M` the shifted logits and `L = log (∑ k, exp (s k))`, so that `s k - L` is the row's
  log-softmax. The row's loss is `- ∑ k, t k * (w k * (s k - L))` (the direct form). Distributing the product over the
  difference and pulling the constant `L` out of the sum gives the fused form `L * ∑ k, t k * w k - ∑ k, t k * w k * s k`,
  which needs neither the log-probabilities nor their weighted product as arrays.

  The two forms are equal when every entry is a real number: `M` is then a real (the row is not empty), each `exp (s k)`
  is a positive real, their sum is positive, so `L` is a real, and the identity is the distributive law of the reals.
  On the extended reals it fails at infinite entries (the distributive law does), which is why finiteness is assumed.
-/
import Idealize.ShloMosaic.PureOps.Ideal
import Idealize.ShloMosaic.PureOps.Ideal.Laws

noncomputable section

open scoped BigOperators

namespace Cert.SoftCE

open Idealize.ShloMosaic

/-- The f32 pattern of minus infinity is the bottom of the extended reals. -/
theorem ofBits_neg_inf : Ideal.ofBits .f32 0xFF800000#32 = ⊥ := by simp [Ideal.ofBits, Ideal.ieee]

/-- The largest entry of a row, taken from minus infinity. -/
def rowMax {n : ℕ} (x : Fin n → EReal) : EReal := (Finset.univ : Finset (Fin n)).fold max ⊥ x

/-- The row's loss with the log-sum-exp pulled out of the weighted sum. -/
def lossFused {n : ℕ} (x t w : Fin n → EReal) : EReal :=
  Ideal.log (∑ k, Ideal.exp (x k - rowMax x)) * (∑ k, t k * w k) - ∑ k, t k * w k * (x k - rowMax x)

/-- The row's loss as minus the weighted sum of the log-softmax. -/
def lossDirect {n : ℕ} (x t w : Fin n → EReal) : EReal :=
  -(∑ k, t k * (w k * (x k - rowMax x - Ideal.log (∑ j, Ideal.exp (x j - rowMax x)))))

/-- A finite sum of reals, taken in the extended reals, is the real sum. -/
theorem coe_sum {n : ℕ} (f : Fin n → ℝ) : (∑ k, (f k : EReal)) = ((∑ k, f k : ℝ) : EReal) := by
  have h : ∀ s : Finset (Fin n), (∑ k ∈ s, (f k : EReal)) = ((∑ k ∈ s, f k : ℝ) : EReal) := by
    intro s
    induction s using Finset.induction_on with
    | empty => simp
    | insert a s ha ih => rw [Finset.sum_insert ha, Finset.sum_insert ha, ih, EReal.coe_add]
  exact h _

/-- The largest entry of a non-empty row of reals is a real. -/
theorem rowMax_coe {n : ℕ} (hn : 0 < n) (f : Fin n → ℝ) : ∃ M : ℝ, rowMax (fun k => (f k : EReal)) = (M : EReal) := by
  have key : ∀ s : Finset (Fin n), s.Nonempty → ∃ M : ℝ, s.fold max ⊥ (fun k => (f k : EReal)) = (M : EReal) := by
    intro s hs
    induction hs using Finset.Nonempty.cons_induction with
    | singleton a => exact ⟨f a, by rw [Finset.fold_singleton]; exact max_bot_right _⟩
    | cons a s ha hs ih =>
      obtain ⟨M, hM⟩ := ih
      exact ⟨max (f a) M, by rw [Finset.fold_cons, hM]; exact (EReal.coe_strictMono.monotone.map_max).symm⟩
  exact key _ ⟨⟨0, hn⟩, Finset.mem_univ _⟩

/-- On a non-empty row of reals the fused form and the direct form of the loss are one number. -/
theorem lossFused_eq_lossDirect {n : ℕ} (hn : 0 < n) (x t w : Fin n → ℝ) :
    lossFused (fun k => (x k : EReal)) (fun k => (t k : EReal)) (fun k => (w k : EReal))
      = lossDirect (fun k => (x k : EReal)) (fun k => (t k : EReal)) (fun k => (w k : EReal)) := by
  obtain ⟨M, hM⟩ := rowMax_coe hn x
  have hpos : 0 < ∑ k, Real.exp (x k - M) :=
    Finset.sum_pos (fun k _ => Real.exp_pos _) ⟨⟨0, hn⟩, Finset.mem_univ _⟩
  have hs : ∀ k, ((x k : EReal) - (M : EReal)) = ((x k - M : ℝ) : EReal) := fun k => (EReal.coe_sub _ _).symm
  simp only [lossFused, lossDirect, hM, hs, Ideal.exp_coe, coe_sum, Ideal.log_coe, if_neg (not_le.mpr hpos)]
  simp only [← EReal.coe_mul, ← EReal.coe_sub, coe_sum, ← EReal.coe_neg]
  refine congrArg _ ?_
  rw [Finset.mul_sum, ← Finset.sum_sub_distrib, ← Finset.sum_neg_distrib]
  exact Finset.sum_congr rfl fun k _ => by ring

end Cert.SoftCE

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.KernelRow.lean ====
/-
  The kernel body's stored value, read one row at a time.

  The body loads a block of 1024 rows of logits and of targets and the one row of normalised weights, and stores one
  number per row. For row `p` of the block it takes the row's largest logit `M`, the shifted logits `s k = x k - M`,
  `L = log (∑ k, exp (s k))`, the weighted targets `t k * w k`, and stores `L * ∑ k, t k * w k - ∑ k, t k * w k * s k`: the
  fused form of the row's cross entropy, `lossFused`, of row `p` of the two blocks and the weights' row.
  Each lane reduction keeps its axis as a column `[1024, 1]`; read at `(p, 0)` a kept sum is the sum over row `p`, and
  the kept maximum, broadcast back over the row, is the row's maximum at every column.
-/
import proofs.«114859_j64046552318263_2_alg».proof.Proof.Gen.KernelIdeal.Skeleton
import proofs.«114859_j64046552318263_2_alg».proof.Proof.RowLaw
import proofs.«114859_j64046552318263_2_alg».proof.Proof.LibKeepdims
import proofs.«114859_j64046552318263_2_alg».proof.Proof.LibHostKeepdims

noncomputable section

open scoped BigOperators

namespace Cert.KernelIdeal.Row

open Cert.KernelIdeal Cert.KernelIdeal.Gen Cert.SoftCE
open Idealize.ShloMosaic Idealize.ShloMosaic.ValueIdx

section Pointwise
variable {s : Shape}

theorem exp_apply (v : FVec Ideal s .f32) (i : s.Idx) : Idealize.ShloMosaic.exp v i = Ideal.exp (v i) := rfl
theorem log_apply (v : FVec Ideal s .f32) (i : s.Idx) : Idealize.ShloMosaic.log v i = Ideal.log (v i) := rfl

end Pointwise

variable (x0 x1 : FVec Ideal S1024x1000 .f32) (x2 : FVec Ideal S1x1000 .f32)

/-- A row sum kept as a column: at `(p, 0)`, the sum over row `p`. -/
theorem keptSum_apply (v : FVec Ideal S1024x1000 .f32) (p : Fin 1024) :
    shapeCast S1024x1 (multiReduction .add [1] S1024 v 0x00000000#32 reduces_S1024x1000_S1024 (.inl rfl) rfl)
        shapeCasts_S1024_S1024x1 (ix2 p (0 : Fin 1))
      = ∑ k : Fin 1000, v (ix2 p k) :=
  (shapeCast_a_a1_apply _ shapeCasts_S1024_S1024x1 p 0).trans
    (multiReduction_add_rows_apply v 0x00000000#32 reduces_S1024x1000_S1024 (.inl rfl) rfl p)

/-- A logit of the block shifted by its row's largest. -/
theorem shifted_apply (p : Fin 1024) (k : Fin 1000) :
    subf x0 (broadcastTo S1024x1000 (shapeCast S1024x1
        (multiReduction .maximumf [1] S1024 x0 0xFF800000#32 reduces_S1024x1000_S1024 (.inl rfl) rfl)
        shapeCasts_S1024_S1024x1) broadcasts_S1024x1_S1024x1000) (ix2 p k)
      = x0 (ix2 p k) - rowMax fun j : Fin 1000 => x0 (ix2 p j) := by
  rw [subf_apply, broadcastTo_a1_ab_apply _ broadcasts_S1024x1_S1024x1000 p k, shapeCast_a_a1_apply _ shapeCasts_S1024_S1024x1 p 0,
    multiReduction_maximumf_rows_apply x0 0xFF800000#32 reduces_S1024x1000_S1024 (.inl rfl) rfl p, ofBits_neg_inf]
  rfl

/-- A target of the block times its class's weight. -/
theorem weighted_apply (p : Fin 1024) (k : Fin 1000) :
    mulf x1 (broadcastTo S1024x1000 (shapeCast S1x1000 x2 shapeCasts_S1x1000_S1x1000) broadcasts_S1x1000_S1024x1000) (ix2 p k)
      = x1 (ix2 p k) * x2 (ix2 (0 : Fin 1) k) := by
  rw [mulf_apply, broadcastTo_1b_ab_apply _ broadcasts_S1x1000_S1024x1000 p k, shapeCast_self]

/-- The stored value at row `p`: the fused form of the row's loss. -/
theorem pay_apply (p : Fin 1024) :
    k0_pay1 (F := Ideal) x0 x1 x2 (ix1 p)
      = lossFused (fun k : Fin 1000 => x0 (ix2 p k)) (fun k : Fin 1000 => x1 (ix2 p k))
          (fun k : Fin 1000 => x2 (ix2 (0 : Fin 1) k)) := by
  unfold k0_pay1
  dsimp only
  rw [shapeCast_a1_a_apply _ shapeCasts_S1024x1_S1024 p, subf_apply, mulf_apply, log_apply,
    keptSum_apply, keptSum_apply, keptSum_apply]
  unfold lossFused
  refine congrArg₂ (· - ·) (congrArg₂ (· * ·) (congrArg Ideal.log (Finset.sum_congr rfl fun k _ => ?_))
    (Finset.sum_congr rfl fun k _ => ?_)) (Finset.sum_congr rfl fun k _ => ?_)
  · rw [exp_apply, shifted_apply]
  · rw [weighted_apply]
  · rw [mulf_apply, weighted_apply, shifted_apply]

end Cert.KernelIdeal.Row

end
-- ==== Proof.KernelValue.lean ====
/-
  What the kernel's result buffer holds after the run, as one function of the argument arrays.

  Before the launch the host normalises the class weights (`weights`) and lays them out as one row `[1, 1000]`; after
  it the host takes the `mean` of the 131072 numbers the launch wrote. The launch has 128 points; point `t` reads
  rows `1024 t … 1024 t + 1023` of the logits and of the targets (all 1000 columns) and the one row of weights, and
  writes entries `1024 t … 1024 t + 1023` of the output. Entry `p` of what it writes is the fused form of the loss of
  row `p` of its blocks (`Row.pay_apply`), which is row `1024 t + p` of the arrays. So block `t` of the output is block
  `t` of ONE array-wide function, `rowLossesFused`: entry `j` is the fused loss of row `j` of the logits and targets.
  The 128 blocks tile the output (entry `j` lies in block `j / 1024`), hence the output array ends holding that function
  of the arrays, and the result buffer its mean.
-/
import proofs.«114859_j64046552318263_2_alg».proof.Proof.Gen.KernelIdeal.Frame
import proofs.«114859_j64046552318263_2_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.SoftCE Idealize.ShloMosaic.ValueIdx Idealize.ShloMosaic.StableHlo

/-! ## The host lines around the launch, and the windows' blocks, at any float values -/

section AnyValues
variable {F : FTy → Type} [FloatOps F]

/-- The class weights scaled so that their mean is one: each weight over the weights' sum, times the 1000 classes. -/
def weights (a2 : S1000.Idx → Elt F .f32) : S1000.Idx → Elt F .f32 :=
  mulf (Host.divf a2 (broadcastInDim S1000 ![] bcast_S_S1000 (Host.reduceAdd a2 (constant S_ .f32 0x00000000#32) reducesTo_S1000_S_d0 h_S_)))
    (broadcastInDim S1000 ![] bcast_S_S1000 (constant S_ .f32 0x447A0000#32))

/-- The mean of 131072 numbers: their sum over 131072. -/
def mean (v : S131072.Idx → Elt F .f32) : S_.Idx → Elt F .f32 :=
  Host.divf (Host.reduceAdd v (constant S_ .f32 0x00000000#32) reducesTo_S131072_S_d0 h_S_) (constant S_ .f32 0x48000000#32)

variable (m : (ℓ : Loc nD τ sig) → Buf (Elt F) ℓ) (ρ : Dev nD → PrngReg)

/-- The launch finds, as its third operand, the normalised weights laid out as one row. -/
theorem V_main_v5 (c : Dev nD) :
    (V m c main_v5 : S1x1000.Idx → Elt F .f32)
      = shapeCast S1x1000 (weights (m ((c : Thread nD τ).loc main_arg2))) shapeCasts_S1000_S1x1000 := by
  show StableHlo.after hostOps0 (fun b => m (c, b)) (Proc.devRef .tc main_v5) = _
  after_results
  rfl

/-- The result buffer after the host lines that follow the launch: the mean of the launch's output array. -/
theorem tail_v8 (c : Dev nD) :
    Pipeline.afterTail₀ cfgs (dats m) 0 (V0 m) [hostOps1] c main_v8
      = mean ((dats m 0 c).arrAt 3 cfg0.N : S131072.Idx → Elt F .f32) := by
  unfold Pipeline.afterTail₀
  show StableHlo.after hostOps1 _ (Proc.devRef .tc main_v8) = _
  after_results
  exact congrArg mean (Pipeline.withArrays_arr spec0 launch0.win.arr_inj c _ _ 3)

/-- The windows' block indices at point `t`: the two matrices and the output move down with `t`, the weights' row stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = t.val :=
  (by decide +kernel : ∀ t : Fin grid0.N, _)

/-- The logits' block at point `t` is rows `1024 t …` of the logits. -/
theorem iblk0_apply (c : Dev nD) (t : Fin cfg0.N) (x : S1024x1000.Idx) (k : S131072x1000.Idx)
    (hk0 : (k 0).val = 1024 * t.val + (x 0).val) (hk1 : (k 1).val = (x 1).val) :
    (iblk m c 0 t : Vec F S1024x1000 .f32) x = (V m c main_arg0 : S131072x1000.Idx → Elt F .f32) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 1024 + 1 * (x 0).val = (k 0).val; rw [e0, hk0]; omega
  | ⟨1, _⟩ => show win0_0.index t 1 * 1000 + 1 * (x 1).val = (k 1).val; rw [e1, hk1]; omega

/-- The targets' block at point `t` is rows `1024 t …` of the targets. -/
theorem iblk1_apply (c : Dev nD) (t : Fin cfg0.N) (x : S1024x1000.Idx) (k : S131072x1000.Idx)
    (hk0 : (k 0).val = 1024 * t.val + (x 0).val) (hk1 : (k 1).val = (x 1).val) :
    (iblk m c 1 t : Vec F S1024x1000 .f32) x = (V m c main_arg1 : S131072x1000.Idx → Elt F .f32) k := by
  obtain ⟨-, -, e2, e3, -⟩ := idx_facts t
  unfold iblk
  rw [View.read_apply]
  show V m c main_arg1 _ = V m c main_arg1 _
  congr 1
  funext a
  apply Fin.ext
  match a with
  | ⟨0, _⟩ => show win0_1.index t 0 * 1024 + 1 * (x 0).val = (k 0).val; rw [e2, hk0]; omega
  | ⟨1, _⟩ => show win0_1.index t 1 * 1000 + 1 * (x 1).val = (k 1).val; rw [e3, hk1]; omega

/-- The weights' block is, at every point, the whole row of weights. -/
theorem iblk2_apply (c : Dev nD) (t : Fin cfg0.N) (x : S1x1000.Idx) :
    (iblk m c 2 t : Vec F S1x1000 .f32) x = (V m c main_v5 : S1x1000.Idx → Elt F .f32) x := by
  obtain ⟨-, -, -, -, e4, e5, -⟩ := idx_facts t
  unfold iblk
  rw [View.read_apply]
  show V m c main_v5 _ = V m c main_v5 _
  congr 1
  funext a
  apply Fin.ext
  match a with
  | ⟨0, _⟩ => show win0_2.index t 0 * 1 + 1 * (x 0).val = (x 0).val; rw [e4]; omega
  | ⟨1, _⟩ => show win0_2.index t 1 * 1000 + 1 * (x 1).val = (x 1).val; rw [e5]; omega

/-- An entry of the output is in point `t`'s block iff it lies among the block's 1024 entries. -/
theorem mem_blk3 (t : Fin cfg0.N) (i : S131072.Idx) :
    i ∈ ((cfg0.win 3).blk t).view.set
      ↔ ∀ a : Fin 1, win0_3.index t a * S1024.size a ≤ (i a).val ∧ (i a).val < win0_3.index t a * S1024.size a + S1024.size a := by
  show i ∈ ((View.whole main_v6).slice (win0_3.rect t)).set ↔ _
  rw [View.set_slice_whole, Rect.mem_set_unit]
  exact Iff.rfl

/-- The 128 blocks tile the output: entry `i` lies in the block of point `i / 1024`, which writes back. -/
theorem cover (i : S131072.Idx) : ∃ t : Fin cfg0.N, (cfg0.win 3).flush t = true ∧ i ∈ ((cfg0.win 3).blk t).view.set := by
  have hN : cfg0.N = 128 := N_0
  have hi : (i 0).val < 131072 := (i 0).isLt
  have ht : (i 0).val / 1024 < cfg0.N := by rw [hN]; omega
  refine ⟨⟨(i 0).val / 1024, ht⟩, flush0_3 _, ?_⟩
  rw [mem_blk3]
  intro a
  obtain ⟨-, -, -, -, -, -, e6⟩ := idx_facts ⟨(i 0).val / 1024, ht⟩
  match a with
  | ⟨0, _⟩ =>
    show win0_3.index ⟨(i 0).val / 1024, ht⟩ 0 * 1024 ≤ (i 0).val
      ∧ (i 0).val < win0_3.index ⟨(i 0).val / 1024, ht⟩ 0 * 1024 + 1024
    rw [e6]
    show (i 0).val / 1024 * 1024 ≤ (i 0).val ∧ (i 0).val < (i 0).val / 1024 * 1024 + 1024
    omega

theorem hz1 : (![0] : Fin 1 → Nat) = fun _ => 0 := funext fun a => by fin_cases a; rfl
theorem hz2 : (![0, 0] : Fin 2 → Nat) = fun _ => 0 := funext fun a => by fin_cases a <;> rfl

end AnyValues

/-! ## The output array and the run, at the ideal values -/

section AtIdeal
variable (m : (ℓ : Loc nD τ sig) → Buf (Elt Ideal) ℓ) (ρ : Dev nD → PrngReg)

/-- Entry `j` of the output: the fused form of the loss of row `j` of the logits and targets under the weights' row. -/
def rowLossesFused (a0 a1 : S131072x1000.Idx → EReal) (w5 : S1x1000.Idx → EReal) : S131072.Idx → EReal :=
  fun j => lossFused (fun k : Fin 1000 => a0 (ix2 (j 0) k)) (fun k : Fin 1000 => a1 (ix2 (j 0) k))
    (fun k : Fin 1000 => w5 (ix2 (0 : Fin 1) k))

/-- A row of blocks that are rows `j` of the arrays stores the array-wide function's entry `j`. -/
theorem row_of_block (X0 X1 : FVec Ideal S1024x1000 .f32) (X2 : FVec Ideal S1x1000 .f32)
    (a0 a1 : S131072x1000.Idx → EReal) (w5 : S1x1000.Idx → EReal) (y : S1024.Idx) (j : S131072.Idx)
    (h0 : ∀ k : Fin 1000, X0 (ix2 (y 0) k) = a0 (ix2 (j 0) k))
    (h1 : ∀ k : Fin 1000, X1 (ix2 (y 0) k) = a1 (ix2 (j 0) k))
    (h2 : ∀ k : Fin 1000, X2 (ix2 (0 : Fin 1) k) = w5 (ix2 (0 : Fin 1) k)) :
    k0_pay1 (F := Ideal) X0 X1 X2 y = rowLossesFused a0 a1 w5 j := by
  refine (congrArg (k0_pay1 (F := Ideal) X0 X1 X2) (eq_ix1 y)).trans ((Row.pay_apply X0 X1 X2 (y 0)).trans ?_)
  unfold rowLossesFused
  simp only [h0, h1, h2]

/-- What point `t` writes back is block `t` of the array-wide function of the arrays as the launch finds them. -/
theorem flushed_eq (c : Dev nD) (t : Fin cfg0.N) :
    (dats m 0 c).flushed 3 t
      = ((cfg0.win 3).blk t).view.read (Elt Ideal) (rowLossesFused (V m c main_arg0) (V m c main_arg1) (V m c main_v5)) := by
  show (cfg0.win 3).cut (grid0.coords t) ((dats m 0 c).after 3 t) = _
  rw [after0_3]
  unfold out0_3
  rw [View.canon_unit_zero hz1]
  simp only [View.ld_unit_zero (S := S1024x1000) hz2, View.ld_unit_zero (S := S1x1000) hz2]
  obtain ⟨-, -, -, -, -, -, e6⟩ := idx_facts t
  funext y
  show k0_pay1 (F := Ideal) (iblk m c 0 t) (iblk m c 1 t) (iblk m c 2 t) y
    = rowLossesFused (V m c main_arg0) (V m c main_arg1) (V m c main_v5) (((cfg0.win 3).blk t).view.emb y)
  refine row_of_block (iblk m c 0 t) (iblk m c 1 t) (iblk m c 2 t) (V m c main_arg0) (V m c main_arg1) (V m c main_v5) y
    (((cfg0.win 3).blk t).view.emb y) (fun k => ?_) (fun k => ?_) (fun k => ?_)
  · refine iblk0_apply m c t _ _ ?_ rfl
    show win0_3.index t 0 * 1024 + 1 * (y 0).val = 1024 * t.val + (y 0).val
    rw [e6]; omega
  · refine iblk1_apply m c t _ _ ?_ rfl
    show win0_3.index t 0 * 1024 + 1 * (y 0).val = 1024 * t.val + (y 0).val
    rw [e6]; omega
  · exact iblk2_apply m c t _

/-- The output array after the run. -/
theorem final (c : Dev nD) :
    (dats m 0 c).arrAt 3 cfg0.N = rowLossesFused (V m c main_arg0) (V m c main_arg1) (V m c main_v5) :=
  (dats m 0 c).arrAt_eq_of_cover 3 (rowLossesFused (V m c main_arg0) (V m c main_arg1) (V m c main_v5))
    (fun t _ => flushed_eq m c t) cover

/-- The run, read: every weakly fair execution of the kernel's program terminates with the result buffer at the mean of
    the rows' fused losses of the argument arrays (under the normalised weights), the argument arrays as they were. -/
theorem run : θ_run defs (onTc (τ := τ) (main (F := Ideal))) ⟨m, fun _ => 0, ρ⟩ fun r => ∀ c : Dev nD,
      r.2.mem ((c.tc : Thread nD τ).loc main_v8)
        = mean (rowLossesFused (m ((c.tc : Thread nD τ).loc main_arg0)) (m ((c.tc : Thread nD τ).loc main_arg1))
            (shapeCast S1x1000 (weights (m ((c.tc : Thread nD τ).loc main_arg2))) shapeCasts_S1000_S1x1000))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨by
      rw [(h c).2 main_v8 (Pipeline.mem_restRefs_of main_v8 (by decide) (by decide)), tail_v8, final, V_main_arg0, V_main_arg1,
        V_main_v5],
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end AtIdeal

end Cert.KernelIdeal.Arr

end
-- ==== Proof.RefRun.lean ====
/-
  The reference's run, read back.

  The reference is a straight line of 33 host operations; the outlined log-softmax stands inlined at its call.
  They fall into stretches, each a pure function of what the stretch before left:
  * the class weights normalised to mean one, `weights a2 = a2 / sum a2 * 1000`;
  * the row-wise log-softmax of the logits, `logSoftmax a0 = s - log (sum over the row of exp s)` with `s` the logits
    shifted by their row's largest entry (`shifted`, `rowMaxes`, `logSumExp`);
  * the rows' losses `rowLosses lp a1 w = - (sum over the row of a1 * (w * lp))` and their `mean` over the 131072 rows.
  Each stretch is read against ANY contents of the buffers it starts from, so the readings compose (the log-softmax is
  itself three stretches: the row maxima; the shift and the exponentials' row sums; the logarithm and the last
  subtraction). `run` is then the program's run: every weakly fair execution
  terminates with the result at `mean (rowLosses (logSoftmax a0) a1 (weights a2))` of the argument arrays, which are
  left as they were.
-/
import proofs.«114859_j64046552318263_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stretches as pure functions -/

/-- The class weights scaled so that their mean is one: each weight over the weights' sum, times the 1000 classes. -/
def weights (a2 : (⟨S1000, .f32⟩ : BufTy).Contents (Elt F)) : (⟨S1000, .f32⟩ : BufTy).Contents (Elt F) :=
  mulf (Host.divf a2 (broadcastInDim S1000 ![] bcast_S_S1000 (Host.reduceAdd a2 (constant S_ .f32 0x00000000#32) reducesTo_S1000_S_d0 h_S_)))
    (broadcastInDim S1000 ![] bcast_S_S1000 (constant S_ .f32 0x447A0000#32))

/-- Each row's largest logit, taken from minus infinity (and once more against minus infinity). -/
def rowMaxes (a0 : (⟨S131072x1000, .f32⟩ : BufTy).Contents (Elt F)) : (⟨S131072, .f32⟩ : BufTy).Contents (Elt F) :=
  maximumf (broadcastInDim S131072 ![] bcast_S_S131072 (constant S_ .f32 0xFF800000#32))
    (Host.reduce FloatOps.maximumf a0 (constant S_ .f32 0xFF800000#32) reducesTo_S131072x1000_S131072_d1 h_S_)

/-- A matrix shifted, row by row, by a vector of per-row values. -/
def shiftBy (a0 : (⟨S131072x1000, .f32⟩ : BufTy).Contents (Elt F)) (mx : (⟨S131072, .f32⟩ : BufTy).Contents (Elt F)) : (⟨S131072x1000, .f32⟩ : BufTy).Contents (Elt F) :=
  subf a0 (broadcastInDim S131072x1000 ![0, 1] bcast_S131072x1_S131072x1000_0_1
    (broadcastInDim S131072x1 ![0] bcast_S131072_S131072x1_0 mx))

/-- Each row's sum of the exponentials of its entries. -/
def expSums (s : (⟨S131072x1000, .f32⟩ : BufTy).Contents (Elt F)) : (⟨S131072, .f32⟩ : BufTy).Contents (Elt F) :=
  Host.reduceAdd (Host.exp s) (constant S_ .f32 0x00000000#32) reducesTo_S131072x1000_S131072_d1 h_S_

/-- A matrix minus, row by row, the logarithm of a vector of per-row values. -/
def minusLog (s : (⟨S131072x1000, .f32⟩ : BufTy).Contents (Elt F)) (es : (⟨S131072, .f32⟩ : BufTy).Contents (Elt F)) : (⟨S131072x1000, .f32⟩ : BufTy).Contents (Elt F) :=
  subf s (broadcastInDim S131072x1000 ![0, 1] bcast_S131072x1_S131072x1000_0_1
    (Host.log (broadcastInDim S131072x1 ![0] bcast_S131072_S131072x1_0 es)))

/-- The logits shifted by their row's largest. -/
def shifted (a0 : (⟨S131072x1000, .f32⟩ : BufTy).Contents (Elt F)) : (⟨S131072x1000, .f32⟩ : BufTy).Contents (Elt F) := shiftBy a0 (rowMaxes a0)

/-- The row-wise log-softmax: the shifted logits minus the log of their exponentials' row sum. -/
def logSoftmax (a0 : (⟨S131072x1000, .f32⟩ : BufTy).Contents (Elt F)) : (⟨S131072x1000, .f32⟩ : BufTy).Contents (Elt F) := minusLog (shifted a0) (expSums (shifted a0))

/-- Each row's loss: minus the sum over the classes of target times (weight times log-probability). -/
def rowLosses (lp a1 : (⟨S131072x1000, .f32⟩ : BufTy).Contents (Elt F)) (w : (⟨S1000, .f32⟩ : BufTy).Contents (Elt F)) : (⟨S131072, .f32⟩ : BufTy).Contents (Elt F) :=
  Host.negf (Host.reduceAdd (mulf a1 (mulf (broadcastInDim S131072x1000 ![0, 1] bcast_S1x1000_S131072x1000_0_1
      (broadcastInDim S1x1000 ![1] bcast_S1000_S1x1000_1 w)) lp))
    (constant S_ .f32 0x00000000#32) reducesTo_S131072x1000_S131072_d1 h_S_)

/-- The mean of the 131072 rows' losses: their sum over 131072. -/
def mean (v : (⟨S131072, .f32⟩ : BufTy).Contents (Elt F)) : (⟨S_, .f32⟩ : BufTy).Contents (Elt F) :=
  Host.divf (Host.reduceAdd v (constant S_ .f32 0x00000000#32) reducesTo_S131072_S_d0 h_S_) (constant S_ .f32 0x48000000#32)

/-! ## The operations, stretch by stretch -/

/-- The seven operations that normalise the weights. -/
abbrev opsW : List (HloOp τ sig (Elt F)) :=
  [ nullary main_cst (constant S_ .f32 0x00000000#32),
    binary main_arg2 main_cst main_v0 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F)),
    unary main_v0 main_v1 (broadcastInDim S1000 ![] bcast_S_S1000 : (⟨S_, .f32⟩ : BufTy).Contents (Elt F) → (⟨S1000, .f32⟩ : BufTy).Contents (Elt F)),
    binary main_arg2 main_v1 main_v2 (Host.divf : (⟨S1000, .f32⟩ : BufTy).Contents (Elt F) → (⟨S1000, .f32⟩ : BufTy).Contents (Elt F) → (⟨S1000, .f32⟩ : BufTy).Contents (Elt F)),
    nullary main_cst_0 (constant S_ .f32 0x447A0000#32),
    unary main_cst_0 main_v3 (broadcastInDim S1000 ![] bcast_S_S1000 : (⟨S_, .f32⟩ : BufTy).Contents (Elt F) → (⟨S1000, .f32⟩ : BufTy).Contents (Elt F)),
    binary main_v2 main_v3 main_v4 (mulf : (⟨S1000, .f32⟩ : BufTy).Contents (Elt F) → (⟨S1000, .f32⟩ : BufTy).Contents (Elt F) → (⟨S1000, .f32⟩ : BufTy).Contents (Elt F)) ]

/-- The log-softmax's first five operations, at the buffers of its one call: the row maxima. -/
abbrev opsM : List (HloOp τ sig (Elt F)) :=
  [ TRef.nullary (TRef.of (T := ⟨S_, .f32⟩) main_call0_cst) (constant S_ .f32 0xFF800000#32),
    TRef.binary (TRef.of (T := ⟨S131072x1000, .f32⟩) main_arg0) (TRef.of (T := ⟨S_, .f32⟩) main_call0_cst) (TRef.of (T := ⟨S131072, .f32⟩) main_call0_v0) (fun x v => Host.reduce FloatOps.maximumf x v reducesTo_S131072x1000_S131072_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S131072, .f32⟩) main_call0_v1) (broadcastInDim S131072 ![] bcast_S_S131072),
    TRef.binary (TRef.of (T := ⟨S131072, .f32⟩) main_call0_v1) (TRef.of (T := ⟨S131072, .f32⟩) main_call0_v0) (TRef.of (T := ⟨S131072, .f32⟩) main_call0_v2) maximumf ]

/-- Its next six: the shift by the row maxima, the exponentials and their row sums. -/
abbrev opsE : List (HloOp τ sig (Elt F)) :=
  [ TRef.unary (TRef.of (T := ⟨S131072, .f32⟩) main_call0_v2) (TRef.of (T := ⟨S131072x1, .f32⟩) main_call0_v3) (broadcastInDim S131072x1 ![0] bcast_S131072_S131072x1_0),
    TRef.unary (TRef.of (T := ⟨S131072x1, .f32⟩) main_call0_v3) (TRef.of (T := ⟨S131072x1000, .f32⟩) main_call0_v4) (broadcastInDim S131072x1000 ![0, 1] bcast_S131072x1_S131072x1000_0_1),
    TRef.binary (TRef.of (T := ⟨S131072x1000, .f32⟩) main_arg0) (TRef.of (T := ⟨S131072x1000, .f32⟩) main_call0_v4) (TRef.of (T := ⟨S131072x1000, .f32⟩) main_call0_v5) subf,
    TRef.unary (TRef.of (T := ⟨S131072x1000, .f32⟩) main_call0_v5) (TRef.of (T := ⟨S131072x1000, .f32⟩) main_call0_v6) Host.exp,
    TRef.nullary (TRef.of (T := ⟨S_, .f32⟩) main_call0_cst_1) (constant S_ .f32 0x00000000#32),
    TRef.binary (TRef.of (T := ⟨S131072x1000, .f32⟩) main_call0_v6) (TRef.of (T := ⟨S_, .f32⟩) main_call0_cst_1) (TRef.of (T := ⟨S131072, .f32⟩) main_call0_v7) (fun x v => Host.reduceAdd x v reducesTo_S131072x1000_S131072_d1 h_S_) ]

/-- Its last four: the logarithm of the row sums, subtracted row by row. -/
abbrev opsL : List (HloOp τ sig (Elt F)) :=
  [ TRef.unary (TRef.of (T := ⟨S131072, .f32⟩) main_call0_v7) (TRef.of (T := ⟨S131072x1, .f32⟩) main_call0_v8) (broadcastInDim S131072x1 ![0] bcast_S131072_S131072x1_0),
    TRef.unary (TRef.of (T := ⟨S131072x1, .f32⟩) main_call0_v8) (TRef.of (T := ⟨S131072x1, .f32⟩) main_call0_v9) Host.log,
    TRef.unary (TRef.of (T := ⟨S131072x1, .f32⟩) main_call0_v9) (TRef.of (T := ⟨S131072x1000, .f32⟩) main_call0_v10) (broadcastInDim S131072x1000 ![0, 1] bcast_S131072x1_S131072x1000_0_1),
    TRef.binary (TRef.of (T := ⟨S131072x1000, .f32⟩) main_call0_v5) (TRef.of (T := ⟨S131072x1000, .f32⟩) main_call0_v10) (TRef.of (T := ⟨S131072x1000, .f32⟩) main_v5) subf ]

/-- The eleven operations from the log-probabilities to the mean loss. -/
abbrev opsT : List (HloOp τ sig (Elt F)) :=
  [ unary main_v4 main_v6 (broadcastInDim S1x1000 ![1] bcast_S1000_S1x1000_1 : (⟨S1000, .f32⟩ : BufTy).Contents (Elt F) → (⟨S1x1000, .f32⟩ : BufTy).Contents (Elt F)),
    unary main_v6 main_v7 (broadcastInDim S131072x1000 ![0, 1] bcast_S1x1000_S131072x1000_0_1 : (⟨S1x1000, .f32⟩ : BufTy).Contents (Elt F) → (⟨S131072x1000, .f32⟩ : BufTy).Contents (Elt F)),
    binary main_v7 main_v5 main_v8 (mulf : (⟨S131072x1000, .f32⟩ : BufTy).Contents (Elt F) → (⟨S131072x1000, .f32⟩ : BufTy).Contents (Elt F) → (⟨S131072x1000, .f32⟩ : BufTy).Contents (Elt F)),
    binary main_arg1 main_v8 main_v9 (mulf : (⟨S131072x1000, .f32⟩ : BufTy).Contents (Elt F) → (⟨S131072x1000, .f32⟩ : BufTy).Contents (Elt F) → (⟨S131072x1000, .f32⟩ : BufTy).Contents (Elt F)),
    nullary main_cst_1 (constant S_ .f32 0x00000000#32),
    binary main_v9 main_cst_1 main_v10 ((fun x v => Host.reduceAdd x v reducesTo_S131072x1000_S131072_d1 h_S_) : (⟨S131072x1000, .f32⟩ : BufTy).Contents (Elt F) → (⟨S_, .f32⟩ : BufTy).Contents (Elt F) → (⟨S131072, .f32⟩ : BufTy).Contents (Elt F)),
    unary main_v10 main_v11 (Host.negf : (⟨S131072, .f32⟩ : BufTy).Contents (Elt F) → (⟨S131072, .f32⟩ : BufTy).Contents (Elt F)),
    nullary main_cst_2 (constant S_ .f32 0x00000000#32),
    binary main_v11 main_cst_2 main_v12 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    nullary main_cst_3 (constant S_ .f32 0x48000000#32),
    binary main_v12 main_cst_3 main_v13 (Host.divf : (⟨S_, .f32⟩ : BufTy).Contents (Elt F) → (⟨S_, .f32⟩ : BufTy).Contents (Elt F) → (⟨S_, .f32⟩ : BufTy).Contents (Elt F)) ]

/-- All 33, in the program's order. -/
abbrev ops : List (HloOp τ sig (Elt F)) :=
  [ nullary main_cst (constant S_ .f32 0x00000000#32),
    binary main_arg2 main_cst main_v0 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F)),
    unary main_v0 main_v1 (broadcastInDim S1000 ![] bcast_S_S1000 : (⟨S_, .f32⟩ : BufTy).Contents (Elt F) → (⟨S1000, .f32⟩ : BufTy).Contents (Elt F)),
    binary main_arg2 main_v1 main_v2 (Host.divf : (⟨S1000, .f32⟩ : BufTy).Contents (Elt F) → (⟨S1000, .f32⟩ : BufTy).Contents (Elt F) → (⟨S1000, .f32⟩ : BufTy).Contents (Elt F)),
    nullary main_cst_0 (constant S_ .f32 0x447A0000#32),
    unary main_cst_0 main_v3 (broadcastInDim S1000 ![] bcast_S_S1000 : (⟨S_, .f32⟩ : BufTy).Contents (Elt F) → (⟨S1000, .f32⟩ : BufTy).Contents (Elt F)),
    binary main_v2 main_v3 main_v4 (mulf : (⟨S1000, .f32⟩ : BufTy).Contents (Elt F) → (⟨S1000, .f32⟩ : BufTy).Contents (Elt F) → (⟨S1000, .f32⟩ : BufTy).Contents (Elt F)),
    TRef.nullary (TRef.of (T := ⟨S_, .f32⟩) main_call0_cst) (constant S_ .f32 0xFF800000#32),
    TRef.binary (TRef.of (T := ⟨S131072x1000, .f32⟩) main_arg0) (TRef.of (T := ⟨S_, .f32⟩) main_call0_cst) (TRef.of (T := ⟨S131072, .f32⟩) main_call0_v0) (fun x v => Host.reduce FloatOps.maximumf x v reducesTo_S131072x1000_S131072_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S131072, .f32⟩) main_call0_v1) (broadcastInDim S131072 ![] bcast_S_S131072),
    TRef.binary (TRef.of (T := ⟨S131072, .f32⟩) main_call0_v1) (TRef.of (T := ⟨S131072, .f32⟩) main_call0_v0) (TRef.of (T := ⟨S131072, .f32⟩) main_call0_v2) maximumf,
    TRef.unary (TRef.of (T := ⟨S131072, .f32⟩) main_call0_v2) (TRef.of (T := ⟨S131072x1, .f32⟩) main_call0_v3) (broadcastInDim S131072x1 ![0] bcast_S131072_S131072x1_0),
    TRef.unary (TRef.of (T := ⟨S131072x1, .f32⟩) main_call0_v3) (TRef.of (T := ⟨S131072x1000, .f32⟩) main_call0_v4) (broadcastInDim S131072x1000 ![0, 1] bcast_S131072x1_S131072x1000_0_1),
    TRef.binary (TRef.of (T := ⟨S131072x1000, .f32⟩) main_arg0) (TRef.of (T := ⟨S131072x1000, .f32⟩) main_call0_v4) (TRef.of (T := ⟨S131072x1000, .f32⟩) main_call0_v5) subf,
    TRef.unary (TRef.of (T := ⟨S131072x1000, .f32⟩) main_call0_v5) (TRef.of (T := ⟨S131072x1000, .f32⟩) main_call0_v6) Host.exp,
    TRef.nullary (TRef.of (T := ⟨S_, .f32⟩) main_call0_cst_1) (constant S_ .f32 0x00000000#32),
    TRef.binary (TRef.of (T := ⟨S131072x1000, .f32⟩) main_call0_v6) (TRef.of (T := ⟨S_, .f32⟩) main_call0_cst_1) (TRef.of (T := ⟨S131072, .f32⟩) main_call0_v7) (fun x v => Host.reduceAdd x v reducesTo_S131072x1000_S131072_d1 h_S_),
    TRef.unary (TRef.of (T := ⟨S131072, .f32⟩) main_call0_v7) (TRef.of (T := ⟨S131072x1, .f32⟩) main_call0_v8) (broadcastInDim S131072x1 ![0] bcast_S131072_S131072x1_0),
    TRef.unary (TRef.of (T := ⟨S131072x1, .f32⟩) main_call0_v8) (TRef.of (T := ⟨S131072x1, .f32⟩) main_call0_v9) Host.log,
    TRef.unary (TRef.of (T := ⟨S131072x1, .f32⟩) main_call0_v9) (TRef.of (T := ⟨S131072x1000, .f32⟩) main_call0_v10) (broadcastInDim S131072x1000 ![0, 1] bcast_S131072x1_S131072x1000_0_1),
    TRef.binary (TRef.of (T := ⟨S131072x1000, .f32⟩) main_call0_v5) (TRef.of (T := ⟨S131072x1000, .f32⟩) main_call0_v10) (TRef.of (T := ⟨S131072x1000, .f32⟩) main_v5) subf,
    unary main_v4 main_v6 (broadcastInDim S1x1000 ![1] bcast_S1000_S1x1000_1 : (⟨S1000, .f32⟩ : BufTy).Contents (Elt F) → (⟨S1x1000, .f32⟩ : BufTy).Contents (Elt F)),
    unary main_v6 main_v7 (broadcastInDim S131072x1000 ![0, 1] bcast_S1x1000_S131072x1000_0_1 : (⟨S1x1000, .f32⟩ : BufTy).Contents (Elt F) → (⟨S131072x1000, .f32⟩ : BufTy).Contents (Elt F)),
    binary main_v7 main_v5 main_v8 (mulf : (⟨S131072x1000, .f32⟩ : BufTy).Contents (Elt F) → (⟨S131072x1000, .f32⟩ : BufTy).Contents (Elt F) → (⟨S131072x1000, .f32⟩ : BufTy).Contents (Elt F)),
    binary main_arg1 main_v8 main_v9 (mulf : (⟨S131072x1000, .f32⟩ : BufTy).Contents (Elt F) → (⟨S131072x1000, .f32⟩ : BufTy).Contents (Elt F) → (⟨S131072x1000, .f32⟩ : BufTy).Contents (Elt F)),
    nullary main_cst_1 (constant S_ .f32 0x00000000#32),
    binary main_v9 main_cst_1 main_v10 ((fun x v => Host.reduceAdd x v reducesTo_S131072x1000_S131072_d1 h_S_) : (⟨S131072x1000, .f32⟩ : BufTy).Contents (Elt F) → (⟨S_, .f32⟩ : BufTy).Contents (Elt F) → (⟨S131072, .f32⟩ : BufTy).Contents (Elt F)),
    unary main_v10 main_v11 (Host.negf : (⟨S131072, .f32⟩ : BufTy).Contents (Elt F) → (⟨S131072, .f32⟩ : BufTy).Contents (Elt F)),
    nullary main_cst_2 (constant S_ .f32 0x00000000#32),
    binary main_v11 main_cst_2 main_v12 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    nullary main_cst_3 (constant S_ .f32 0x48000000#32),
    binary main_v12 main_cst_3 main_v13 (Host.divf : (⟨S_, .f32⟩ : BufTy).Contents (Elt F) → (⟨S_, .f32⟩ : BufTy).Contents (Elt F) → (⟨S_, .f32⟩ : BufTy).Contents (Elt F)) ]

theorem ops_eq : (ops : List (HloOp τ sig (Elt F))) = opsW ++ (opsM ++ (opsE ++ (opsL ++ opsT))) := rfl

/-- Contents after two stretches in a row: the second stretch run from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

variable (W : Valuation τ sig (Elt F))

/-! ## The weights' stretch -/

theorem opsW_v4 : after opsW W (Proc.devRef .tc main_v4) = weights (W (Proc.devRef .tc main_arg2)) := by
  after_results; rfl
theorem opsW_arg0 : after opsW W (Proc.devRef .tc main_arg0) = W (Proc.devRef .tc main_arg0) := by after_results
theorem opsW_arg1 : after opsW W (Proc.devRef .tc main_arg1) = W (Proc.devRef .tc main_arg1) := by after_results
theorem opsW_arg2 : after opsW W (Proc.devRef .tc main_arg2) = W (Proc.devRef .tc main_arg2) := by after_results

/-! ## The log-softmax's three stretches -/

/-- The first stretch with ANY reduction `g` of the matrix from its initial value in the row maximum's place: what is
    left in the stretch's last buffer is the entrywise maximum of the broadcast constant and `g` of the matrix. The row
    maximum is the instance below; nothing here depends on which reduction it is. -/
theorem maxStretch (g : (⟨S131072x1000, .f32⟩ : BufTy).Contents (Elt F) → (⟨S_, .f32⟩ : BufTy).Contents (Elt F) → (⟨S131072, .f32⟩ : BufTy).Contents (Elt F)) :
    after
      [ TRef.nullary (TRef.of (T := ⟨S_, .f32⟩) main_call0_cst) (constant S_ .f32 0xFF800000#32),
        TRef.binary (TRef.of (T := ⟨S131072x1000, .f32⟩) main_arg0) (TRef.of (T := ⟨S_, .f32⟩) main_call0_cst) (TRef.of (T := ⟨S131072, .f32⟩) main_call0_v0) g,
        TRef.nullary (TRef.of (T := ⟨S_, .f32⟩) main_call0_cst_0) (constant S_ .f32 0xFF800000#32),
        TRef.unary (TRef.of (T := ⟨S_, .f32⟩) main_call0_cst_0) (TRef.of (T := ⟨S131072, .f32⟩) main_call0_v1) (broadcastInDim S131072 ![] bcast_S_S131072),
        TRef.binary (TRef.of (T := ⟨S131072, .f32⟩) main_call0_v1) (TRef.of (T := ⟨S131072, .f32⟩) main_call0_v0) (TRef.of (T := ⟨S131072, .f32⟩) main_call0_v2) maximumf ] W (Proc.devRef .tc main_call0_v2)
      = maximumf (broadcastInDim S131072 ![] bcast_S_S131072 (constant S_ .f32 0xFF800000#32))
          (g (W (Proc.devRef .tc main_arg0)) (constant S_ .f32 0xFF800000#32)) := by
  after_results; rfl

theorem opsM_v2 : after opsM W (Proc.devRef .tc main_call0_v2) = rowMaxes (W (Proc.devRef .tc main_arg0)) :=
  maxStretch W (fun x v => Host.reduce FloatOps.maximumf x v reducesTo_S131072x1000_S131072_d1 h_S_)
theorem opsM_arg0 : after opsM W (Proc.devRef .tc main_arg0) = W (Proc.devRef .tc main_arg0) := by after_results
theorem opsM_arg1 : after opsM W (Proc.devRef .tc main_arg1) = W (Proc.devRef .tc main_arg1) := by after_results
theorem opsM_arg2 : after opsM W (Proc.devRef .tc main_arg2) = W (Proc.devRef .tc main_arg2) := by after_results
theorem opsM_v4 : after opsM W (Proc.devRef .tc main_v4) = W (Proc.devRef .tc main_v4) := by after_results

theorem opsE_v5 : after opsE W (Proc.devRef .tc main_call0_v5)
    = shiftBy (W (Proc.devRef .tc main_arg0)) (W (Proc.devRef .tc main_call0_v2)) := by
  after_results; rfl
theorem opsE_v7 : after opsE W (Proc.devRef .tc main_call0_v7)
    = expSums (shiftBy (W (Proc.devRef .tc main_arg0)) (W (Proc.devRef .tc main_call0_v2))) := by
  after_results; rfl
theorem opsE_arg0 : after opsE W (Proc.devRef .tc main_arg0) = W (Proc.devRef .tc main_arg0) := by after_results
theorem opsE_arg1 : after opsE W (Proc.devRef .tc main_arg1) = W (Proc.devRef .tc main_arg1) := by after_results
theorem opsE_arg2 : after opsE W (Proc.devRef .tc main_arg2) = W (Proc.devRef .tc main_arg2) := by after_results
theorem opsE_v4 : after opsE W (Proc.devRef .tc main_v4) = W (Proc.devRef .tc main_v4) := by after_results

theorem opsL_v5 : after opsL W (Proc.devRef .tc main_v5)
    = minusLog (W (Proc.devRef .tc main_call0_v5)) (W (Proc.devRef .tc main_call0_v7)) := by
  after_results; rfl
theorem opsL_arg0 : after opsL W (Proc.devRef .tc main_arg0) = W (Proc.devRef .tc main_arg0) := by after_results
theorem opsL_arg1 : after opsL W (Proc.devRef .tc main_arg1) = W (Proc.devRef .tc main_arg1) := by after_results
theorem opsL_arg2 : after opsL W (Proc.devRef .tc main_arg2) = W (Proc.devRef .tc main_arg2) := by after_results
theorem opsL_v4 : after opsL W (Proc.devRef .tc main_v4) = W (Proc.devRef .tc main_v4) := by after_results

/-! ## The last stretch -/

theorem opsT_v13 : after opsT W (Proc.devRef .tc main_v13)
    = mean (rowLosses (W (Proc.devRef .tc main_v5)) (W (Proc.devRef .tc main_arg1)) (W (Proc.devRef .tc main_v4))) := by
  after_results; rfl
theorem opsT_arg0 : after opsT W (Proc.devRef .tc main_arg0) = W (Proc.devRef .tc main_arg0) := by after_results
theorem opsT_arg1 : after opsT W (Proc.devRef .tc main_arg1) = W (Proc.devRef .tc main_arg1) := by after_results
theorem opsT_arg2 : after opsT W (Proc.devRef .tc main_arg2) = W (Proc.devRef .tc main_arg2) := by after_results

/-! ## The whole line -/

/-- The result buffer after all 33 operations, from any contents. -/
theorem ops_v13 : after ops W (Proc.devRef .tc main_v13)
    = mean (rowLosses (logSoftmax (W (Proc.devRef .tc main_arg0))) (W (Proc.devRef .tc main_arg1)) (weights (W (Proc.devRef .tc main_arg2)))) := by
  rw [ops_eq, after_append, after_append, after_append, after_append, opsT_v13, opsL_v5, opsL_arg1, opsL_v4,
    opsE_v5, opsE_v7, opsE_arg1, opsE_v4, opsM_v2, opsM_arg0, opsM_arg1, opsM_v4, opsW_arg0, opsW_arg1, opsW_v4]
  rfl

theorem ops_arg0 : after ops W (Proc.devRef .tc main_arg0) = W (Proc.devRef .tc main_arg0) := by
  rw [ops_eq, after_append, after_append, after_append, after_append, opsT_arg0, opsL_arg0, opsE_arg0, opsM_arg0, opsW_arg0]
theorem ops_arg1 : after ops W (Proc.devRef .tc main_arg1) = W (Proc.devRef .tc main_arg1) := by
  rw [ops_eq, after_append, after_append, after_append, after_append, opsT_arg1, opsL_arg1, opsE_arg1, opsM_arg1, opsW_arg1]
theorem ops_arg2 : after ops W (Proc.devRef .tc main_arg2) = W (Proc.devRef .tc main_arg2) := by
  rw [ops_eq, after_append, after_append, after_append, after_append, opsT_arg2, opsL_arg2, opsE_arg2, opsM_arg2, opsW_arg2]

/-! ## The run -/

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., binary_bufs_sub .., binary_bufs_sub .., nullary_bufs_sub .., binary_bufs_sub .., unary_bufs_sub .., nullary_bufs_sub .., binary_bufs_sub .., nullary_bufs_sub .., binary_bufs_sub ..⟩

/-- On every device, for any float values, from any memory with zero counters: every weakly fair execution of the
    reference terminates with its result at the mean of the rows' losses of the argument arrays, and the argument
    arrays as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
        = mean (rowLosses (logSoftmax (m ((c.tc : Thread nD τ).loc main_arg0))) (m ((c.tc : Thread nD τ).loc main_arg1))
            (weights (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v13).trans (ops_v13 _), (h c main_arg0).trans (ops_arg0 _),
      (h c main_arg1).trans (ops_arg1 _), (h c main_arg2).trans (ops_arg2 _)⟩)
    (run_seq scopedRefs_eq scopedSems_eq defs main (fun _ => ops) main_eq (fun _ => ops_sub) m ρ)

end Cert.ReferenceIdeal.RefRun

end
-- ==== Proof.RefRead.lean ====
/-
  The reference's losses, read one row at a time.

  Every stage of the reference that meets the matrix of logits works row by row: the row maximum, the shift by it, the
  row sum of the exponentials, its logarithm, and the weighted sum against the targets. Read at row `r` (and, for a
  matrix, column `k`) each is a function of row `r` of its operands alone. Composed, the loss of row `r` is the direct
  form of the row's cross entropy, `lossDirect`, of row `r` of the logits, row `r` of the targets and the weights.
  The two zero words the sums start from add nothing, and the maximum's starting value is minus infinity, the bottom.
-/
import proofs.«114859_j64046552318263_2_alg».proof.Proof.RefRun
import proofs.«114859_j64046552318263_2_alg».proof.Proof.RowLaw
import proofs.«114859_j64046552318263_2_alg».proof.Proof.LibHostKeepdims

noncomputable section

open scoped BigOperators

namespace Cert.ReferenceIdeal.RefRead

open Cert.ReferenceIdeal Cert.ReferenceIdeal.Gen Cert.ReferenceIdeal.RefRun Cert.SoftCE
open Idealize.ShloMosaic Idealize.ShloMosaic.ValueIdx

/-- The matrix reduces along its rows to a vector: the witness that names a row's entries by their column. -/
theorem reduces_rows : S131072x1000.Reduces [1] S131072 := by decide

section Pointwise
variable {s : Shape}

theorem hostExp_apply (v : FVec Ideal s .f32) (i : s.Idx) : Host.exp v i = Ideal.exp (v i) := rfl
theorem hostLog_apply (v : FVec Ideal s .f32) (i : s.Idx) : Host.log v i = Ideal.log (v i) := rfl
theorem hostNegf_apply (v : FVec Ideal s .f32) (i : s.Idx) : Host.negf v i = -(v i) := rfl

end Pointwise

variable (a0 a1 : FVec Ideal S131072x1000 .f32) (w : FVec Ideal S1000 .f32)

/-- Row `r`'s largest logit. -/
theorem rowMaxes_apply (r : Fin 131072) :
    rowMaxes (F := Ideal) a0 (ix1 r) = rowMax fun k : Fin 1000 => a0 (ix2 r k) := by
  unfold rowMaxes
  rw [maximumf_apply, hostReduce_max_rows_apply a0 _ reducesTo_S131072x1000_S131072_d1 reduces_rows h_S_ r,
    broadcastInDim_scalar_apply, constant_apply, constant_apply, ofBits_neg_inf, max_bot_left]
  rfl

/-- A logit shifted by its row's largest. -/
theorem shifted_apply (r : Fin 131072) (k : Fin 1000) :
    shifted (F := Ideal) a0 (ix2 r k) = a0 (ix2 r k) - rowMax fun j : Fin 1000 => a0 (ix2 r j) := by
  unfold shifted shiftBy
  rw [subf_apply, broadcastInDim_a1_ab_apply _ _ rfl _ r k, broadcastInDim_a_a1_apply _ _ rfl _ r 0, rowMaxes_apply]

/-- Row `r`'s sum of exponentials. -/
theorem expSums_apply (sh : FVec Ideal S131072x1000 .f32) (r : Fin 131072) :
    expSums (F := Ideal) sh (ix1 r) = ∑ k : Fin 1000, Ideal.exp (sh (ix2 r k)) := by
  unfold expSums
  rw [hostReduceAdd_rows_apply _ _ reducesTo_S131072x1000_S131072_d1 reduces_rows h_S_ r, constant_apply,
    Ideal.ofBits_zero_f32, zero_add]
  rfl

/-- An entry minus the logarithm of its row's value. -/
theorem minusLog_apply (sh : FVec Ideal S131072x1000 .f32) (es : FVec Ideal S131072 .f32) (r : Fin 131072) (k : Fin 1000) :
    minusLog (F := Ideal) sh es (ix2 r k) = sh (ix2 r k) - Ideal.log (es (ix1 r)) := by
  unfold minusLog
  rw [subf_apply, broadcastInDim_a1_ab_apply _ _ rfl _ r k, hostLog_apply, broadcastInDim_a_a1_apply _ _ rfl _ r 0]

/-- The log-softmax at `(r, k)`, from row `r` of the logits. -/
theorem logSoftmax_apply (r : Fin 131072) (k : Fin 1000) :
    logSoftmax (F := Ideal) a0 (ix2 r k)
      = a0 (ix2 r k) - (rowMax fun j : Fin 1000 => a0 (ix2 r j))
          - Ideal.log (∑ j : Fin 1000, Ideal.exp (a0 (ix2 r j) - rowMax fun i : Fin 1000 => a0 (ix2 r i))) := by
  unfold logSoftmax
  rw [minusLog_apply, expSums_apply, shifted_apply]
  simp only [shifted_apply]

/-- Row `r`'s loss from any matrix of log-probabilities. -/
theorem rowLosses_apply (lp : FVec Ideal S131072x1000 .f32) (r : Fin 131072) :
    rowLosses (F := Ideal) lp a1 w (ix1 r) = -(∑ k : Fin 1000, a1 (ix2 r k) * (w (ix1 k) * lp (ix2 r k))) := by
  unfold rowLosses
  rw [hostNegf_apply, hostReduceAdd_rows_apply _ _ reducesTo_S131072x1000_S131072_d1 reduces_rows h_S_ r, constant_apply,
    Ideal.ofBits_zero_f32, zero_add]
  refine congrArg Neg.neg (Finset.sum_congr rfl fun k _ => ?_)
  rw [mulf_apply, mulf_apply, broadcastInDim_1b_ab_apply _ _ rfl _ r k, broadcastInDim_b_1b_apply _ _ rfl _ 0 k]

/-- Row `r`'s loss in the reference: the direct form of the row's cross entropy. -/
theorem rowLosses_eq (r : Fin 131072) :
    rowLosses (F := Ideal) (logSoftmax a0) a1 w (ix1 r)
      = lossDirect (fun k : Fin 1000 => a0 (ix2 r k)) (fun k : Fin 1000 => a1 (ix2 r k)) (fun k : Fin 1000 => w (ix1 k)) := by
  rw [rowLosses_apply]
  simp only [logSoftmax_apply]
  rfl

end Cert.ReferenceIdeal.RefRead

end
-- ==== Proof.Finite.lean ====
/-
  What the precondition says of the argument arrays, at the ideal values.

  The precondition is the conjunction of four one-bit tests: every logit, every target and every class weight has an
  absolute value below plus infinity, and the class weights' sum is not zero. An extended real whose absolute value is
  below the top is neither the top nor the bottom, so it is a real number: under the precondition the three arrays are
  arrays of reals. The last test is what keeps the normalisation of the weights (each weight over the weights' sum) a
  quotient of reals.
-/
import proofs.«114859_j64046552318263_2_alg».proof.Pre_finite_inputs
import proofs.«114859_j64046552318263_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Decode

open Cert.Pre_finite_inputs Cert.Pre_finite_inputs.Gen
open Idealize.ShloMosaic Idealize.ShloMosaic.ValueIdx

instance : Subsingleton S_.Idx := ⟨fun a b => funext fun d => d.elim0⟩

/-- An extended real whose absolute value is below plus infinity is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Two extended reals that the "not equal" test tells apart are different. -/
theorem ne_of_cmp_une (x y : EReal) (h : Ideal.cmp .une x y = 1#1) : x ≠ y := by
  intro hxy
  simp [Ideal.cmp, hxy] at h

/-- Under the precondition the three argument arrays hold real numbers, and the class weights' sum (taken from the
    zero word, as both programs take it) is not zero. -/
theorem decode (a0 a1 : FVec Ideal S131072x1000 .f32) (a2 : FVec Ideal S1000 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal))
      ∧ Host.reduceAdd (F := Ideal) a2 (constant (F := Ideal) S_ .f32 0x00000000#32) reducesTo_S1000_S_d0 h_S_ ix0
          ≠ Ideal.ofBits .f32 0x00000000#32 := by
  have h0 := congrFun h ix0
  dsimp only [fn, fn_part1] at h0
  obtain ⟨h13, h15⟩ := IntOp.andi_eq_one.mp h0
  obtain ⟨h8, h12⟩ := IntOp.andi_eq_one.mp h13
  obtain ⟨h3, h7⟩ := IntOp.andi_eq_one.mp h8
  exact ⟨fun i => real_of_abs_lt (a0 i) (Host.reduce_andi_all _ _ _ _ _ h3 i),
    fun i => real_of_abs_lt (a1 i) (Host.reduce_andi_all _ _ _ _ _ h7 i),
    fun i => real_of_abs_lt (a2 i) (Host.reduce_andi_all _ _ _ _ _ h12 i),
    ne_of_cmp_une _ _ h15⟩

end Cert.Pre_finite_inputs.Decode

end
-- ==== Proof.Bridge.lean ====
/-
  The two programs compute one number.

  Both normalise the class weights the same way, and both end with the mean over the 131072 rows; between the two they
  differ only in how a row's loss is written: the kernel's launch leaves the fused form, the reference the direct form
  (RowLaw). The two forms agree on a row of real numbers. Under the precondition the logits and the targets are real,
  and so is every normalised weight: a weight is a real, the weights' sum is a real and not zero, so the quotient is a
  product with a real reciprocal, and the factor 1000 is a real. Without the sum being non-zero the quotient would be an
  infinity and the two forms would part, which is what the added conjunct of the precondition excludes.
-/
import proofs.«114859_j64046552318263_2_alg».proof.Defs
import proofs.«114859_j64046552318263_2_alg».proof.Proof.KernelValue
import proofs.«114859_j64046552318263_2_alg».proof.Proof.RefRead
import proofs.«114859_j64046552318263_2_alg».proof.Proof.Finite

noncomputable section

open scoped BigOperators

namespace Cert.Bridge

open Idealize.ShloMosaic Idealize.ShloMosaic.ValueIdx Cert.SoftCE

/-- A finite sum of reals, taken in the extended reals, is the real sum (over any finite index type). -/
theorem coe_fintype_sum {ι : Type} [Fintype ι] (f : ι → ℝ) : (∑ k, (f k : EReal)) = ((∑ k, f k : ℝ) : EReal) := by
  classical
  have h : ∀ s : Finset ι, (∑ k ∈ s, (f k : EReal)) = ((∑ k ∈ s, f k : ℝ) : EReal) := by
    intro s
    induction s using Finset.induction_on with
    | empty => simp
    | insert a s ha ih => rw [Finset.sum_insert ha, Finset.sum_insert ha, ih, EReal.coe_add]
  exact h _

/-- The fused and the direct form of a row's loss agree on a non-empty row whose entries are reals. -/
theorem rows_agree {n : ℕ} (hn : 0 < n) (x t w : Fin n → EReal) (hx : ∀ k, ∃ r : ℝ, x k = (r : EReal))
    (ht : ∀ k, ∃ r : ℝ, t k = (r : EReal)) (hw : ∀ k, ∃ r : ℝ, w k = (r : EReal)) :
    lossFused x t w = lossDirect x t w := by
  choose fx hfx using hx
  choose ft hft using ht
  choose fw hfw using hw
  obtain rfl : x = fun k => (fx k : EReal) := funext hfx
  obtain rfl : t = fun k => (ft k : EReal) := funext hft
  obtain rfl : w = fun k => (fw k : EReal) := funext hfw
  exact lossFused_eq_lossDirect hn fx ft fw

/-- The f32 word of 1000.0 is the real 1000. -/
theorem ofBits_1000 : Ideal.ofBits .f32 0x447A0000#32 = ((1000 : ℝ) : EReal) := by
  simp [Ideal.ofBits, Ideal.ieee, -EReal.coe_mul]; norm_num

section Weights
open Cert.ReferenceIdeal Cert.ReferenceIdeal.Gen Cert.ReferenceIdeal.RefRun

/-- Real class weights whose sum is not zero normalise to real weights. -/
theorem weights_real (a2 : FVec Ideal S1000 .f32) (h2 : ∀ i, ∃ r : ℝ, a2 i = (r : EReal))
    (hS : Host.reduceAdd (F := Ideal) a2 (constant (F := Ideal) S_ .f32 0x00000000#32) reducesTo_S1000_S_d0 h_S_ ix0
      ≠ Ideal.ofBits .f32 0x00000000#32) (k : S1000.Idx) :
    ∃ r : ℝ, weights (F := Ideal) a2 k = (r : EReal) := by
  choose g hg using h2
  have hsum : Host.reduceAdd (F := Ideal) a2 (constant (F := Ideal) S_ .f32 0x00000000#32) reducesTo_S1000_S_d0 h_S_ ix0
      = ((∑ j, g j : ℝ) : EReal) := by
    simp only [Host.reduceAdd, Ideal.hostReduceAdd_def]
    rw [Ideal.hostReduceAdd_total reducesTo_S1000_S_d0 (fun b => b.elim0), constant_apply, Ideal.ofBits_zero_f32, zero_add]
    simp only [hg]
    exact coe_fintype_sum g
  have hs0 : (∑ j, g j : ℝ) ≠ 0 := by
    intro h0
    apply hS
    rw [hsum, h0, Ideal.ofBits_zero_f32]
    rfl
  refine ⟨g k * (1 / ∑ j, g j) * 1000, ?_⟩
  unfold weights
  rw [mulf_apply]
  show Ideal.div (a2 k) (broadcastInDim S1000 ![] bcast_S_S1000
      (Host.reduceAdd (F := Ideal) a2 (constant (F := Ideal) S_ .f32 0x00000000#32) reducesTo_S1000_S_d0 h_S_) k)
    * broadcastInDim S1000 ![] bcast_S_S1000 (constant (F := Ideal) S_ .f32 0x447A0000#32) k = _
  rw [broadcastInDim_scalar_apply, broadcastInDim_scalar_apply, constant_apply, hsum, Ideal.div_coe hs0, hg, ofBits_1000,
    ← EReal.coe_mul, ← EReal.coe_mul]

end Weights

/-- Under the precondition the kernel's result and the reference's are one number: the mean, over the rows, of the
    row's loss, written in the fused form by the one and in the direct form by the other. -/
theorem result_eq (a0 a1 : FVec Ideal Cert.ReferenceIdeal.S131072x1000 .f32) (a2 : FVec Ideal Cert.ReferenceIdeal.S1000 .f32)
    (hpre : Cert.Pre_finite_inputs.fn (F := Ideal) a0 a1 a2 = fun _ => 1#1) :
    Cert.KernelIdeal.Arr.mean (F := Ideal) (Cert.KernelIdeal.Arr.rowLossesFused a0 a1
        (shapeCast Cert.KernelIdeal.S1x1000 (Cert.KernelIdeal.Arr.weights (F := Ideal) a2) Cert.KernelIdeal.Gen.shapeCasts_S1000_S1x1000))
      = Cert.ReferenceIdeal.RefRun.mean (F := Ideal) (Cert.ReferenceIdeal.RefRun.rowLosses (F := Ideal)
          (Cert.ReferenceIdeal.RefRun.logSoftmax (F := Ideal) a0) a1 (Cert.ReferenceIdeal.RefRun.weights (F := Ideal) a2)) := by
  obtain ⟨h0, h1, h2, hS⟩ := Cert.Pre_finite_inputs.Decode.decode a0 a1 a2 hpre
  have hw := weights_real a2 h2 hS
  have key : Cert.KernelIdeal.Arr.rowLossesFused a0 a1
        (shapeCast Cert.KernelIdeal.S1x1000 (Cert.KernelIdeal.Arr.weights (F := Ideal) a2) Cert.KernelIdeal.Gen.shapeCasts_S1000_S1x1000)
      = Cert.ReferenceIdeal.RefRun.rowLosses (F := Ideal) (Cert.ReferenceIdeal.RefRun.logSoftmax (F := Ideal) a0) a1
          (Cert.ReferenceIdeal.RefRun.weights (F := Ideal) a2) := by
    funext j
    obtain ⟨r, rfl⟩ : ∃ r : Fin 131072, j = ix1 r := ⟨j 0, eq_ix1 j⟩
    rw [Cert.ReferenceIdeal.RefRead.rowLosses_eq]
    unfold Cert.KernelIdeal.Arr.rowLossesFused
    have ew : (fun k : Fin 1000 => shapeCast Cert.KernelIdeal.S1x1000 (Cert.KernelIdeal.Arr.weights (F := Ideal) a2)
          Cert.KernelIdeal.Gen.shapeCasts_S1000_S1x1000 (ix2 (0 : Fin 1) k))
        = fun k : Fin 1000 => Cert.ReferenceIdeal.RefRun.weights (F := Ideal) a2 (ix1 k) :=
      funext fun k => shapeCast_a_1a_apply _ _ 0 k
    rw [ew]
    exact rows_agree (by norm_num) _ _ _ (fun k => h0 _) (fun k => h1 _) (fun k => hw _)
  show Cert.ReferenceIdeal.RefRun.mean (F := Ideal) _ = _
  rw [key]

end Cert.Bridge

end
-- ==== Proof.lean ====
/-
  A weighted soft-target cross entropy, averaged over 131072 rows of 1000 classes: the kernel against its reference.

  Both programs scale the class weights to mean one (each weight over the weights' sum, times 1000) and return the mean
  over the rows of the row's loss `- ∑ k, target k * (weight k * logsoftmax k)`. The reference computes exactly that,
  with `logsoftmax k = s k - log (∑ j, exp (s j))` for the logits `s` shifted by their row's largest. The kernel never
  forms the log-probabilities: per row it stores `log (∑ j, exp (s j)) * ∑ k, target k * weight k - ∑ k, target k * weight k * s k`,
  the same number after distributing and pulling the row's constant out of the sum. That identity is the distributive
  law, which holds for reals and fails at infinities, so it is used under the precondition: finite logits, targets and
  weights, and a weights' sum that is not zero (so that the scaled weights are reals, not quotients by zero).

  The pieces: RowLaw (the identity on one row), KernelRow (the kernel body's stored value at a row is the fused form),
  KernelValue (the launch's 128 blocks tile the output; the kernel's run read back), RefRun and RefRead (the reference's
  run read back, and its row loss is the direct form), Finite (what the precondition gives), Bridge (the two results
  are one number). The frames of the two kernel programs are the generated ones; the reference's frame is its run with
  the result dropped; the idealisation rewrote nothing, so there is nothing to preserve.
-/
import proofs.«114859_j64046552318263_2_alg».proof.Defs
import proofs.«114859_j64046552318263_2_alg».proof.Proof.Gen.Kernel
import proofs.«114859_j64046552318263_2_alg».proof.Proof.Gen.Kernel.Frame
import proofs.«114859_j64046552318263_2_alg».proof.Proof.Gen.KernelIdeal
import proofs.«114859_j64046552318263_2_alg».proof.Proof.Gen.KernelIdeal.Frame
import proofs.«114859_j64046552318263_2_alg».proof.Proof.Gen.ReferenceIdeal
import proofs.«114859_j64046552318263_2_alg».proof.Proof.Gen.Pre_finite_inputs
import proofs.«114859_j64046552318263_2_alg».proof.Proof.Bridge
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and leaves its arguments alone: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealisation rewrote no operation. -/
theorem preserves : Cert.preserves_Kernel_KernelIdeal := trivial

/-- From memories that agree on the arguments and satisfy the precondition, both programs end with the same mean loss. -/
theorem algebraic : Cert.algebraic_KernelIdeal_ReferenceIdeal := by
  intro m ρ m' ρ' hpre hagree
  refine ⟨_, Cert.KernelIdeal.Arr.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact (Cert.Bridge.result_eq _ _ _ (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
